-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x512 .f32) (main_arg2 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S512 : Shape := ⟨1, ![512]⟩
abbrev S1x512 : Shape := ⟨2, ![1, 512]⟩
abbrev S8192x8192 : Shape := ⟨2, ![8192, 8192]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S8192x512, .f32⟩
  | .local _ .vmem, ⟨3, _⟩ => ⟨S1x512, .f32⟩
  | .local _ .vmem, ⟨4, _⟩ => ⟨S1024x1024, .f32⟩
  | .local _ .vmem, ⟨5, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_3 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  reduces_S1024x512_S1024 : S1024x512.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512 : Shape := ⟨1, ![512]⟩
abbrev S1x512 : Shape := ⟨2, ![1, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S512x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.DistSpec.lean ====
/-
  The table of squared scaled distances, as ONE function of the three argument arrays over the extended reals.

  For points `x r` and `y s` in 512 coordinates and a per-coordinate scale `e d = exp (l d)`, write
  `xs r d = x r d · e d` and `ys s d = y s d · e d`. The entry at `(r, s)` is

      (∑ d, xs r d · xs r d  +  ∑ d, ys s d · ys s d)  −  2 · ∑ d, xs r d · ys s d,

  the expanded form of `∑ d, (xs r d − ys s d)²`, kept expanded: both programs compute the three sums
  separately and combine them in this order, so no law of the extended reals beyond the ones below is
  needed, and none that fails at an infinity.

  The second program adds to an entry `v` the term `max v 0 · 0`; on the extended reals a product
  with `0` is `0` whatever the other factor (`⊤ · 0 = 0` too), so that term vanishes and the sum is `v`
  (`clamp_term_vanishes`).
-/
import Idealize.ShloMosaic.PureOps.Ideal
import Idealize.ShloMosaic.PureOps.Ideal.Laws
import Idealize.ShloMosaic.Lib.ValueIdx

noncomputable section

open scoped BigOperators

namespace Cert.DiagDist

open Idealize.ShloMosaic Idealize.ShloMosaic.ValueIdx

/-- The shape of each point array: 8192 points of 512 coordinates. -/
abbrev Pts : Shape := ⟨2, ![8192, 512]⟩
/-- The shape of the logarithms of the scale: one per coordinate. -/
abbrev Coords : Shape := ⟨1, ![512]⟩
/-- The shape of the table: one entry per pair of points. -/
abbrev Table : Shape := ⟨2, ![8192, 8192]⟩

/-- The scale of coordinate `d`: the exponential of its logarithm. -/
def scale (l : FVec Ideal Coords .f32) (d : Fin 512) : EReal :=
  FloatOps.hostUnary (F := Ideal) (φ := .f32) .exp (l (ix1 d))

/-- Coordinate `d` of point `r` of `a`, scaled. -/
def scaled (a : FVec Ideal Pts .f32) (l : FVec Ideal Coords .f32) (r : Fin 8192) (d : Fin 512) : EReal :=
  a (ix2 r d) * scale l d

/-- The squared norm of the scaled point `r` of `a`. -/
def sqnorm (a : FVec Ideal Pts .f32) (l : FVec Ideal Coords .f32) (r : Fin 8192) : EReal :=
  ∑ d : Fin 512, scaled a l r d * scaled a l r d

/-- The inner product of the scaled point `r` of `x` with the scaled point `s` of `y`. -/
def inner (x y : FVec Ideal Pts .f32) (l : FVec Ideal Coords .f32) (r s : Fin 8192) : EReal :=
  ∑ d : Fin 512, scaled x l r d * scaled y l s d

/-- The table: at `(r, s)`, the two squared norms added, less twice the inner product (the literal `2.0`
    both programs print, left as its word: the same word on both sides is never evaluated). -/
def dist (x y : FVec Ideal Pts .f32) (l : FVec Ideal Coords .f32) : FVec Ideal Table .f32 := fun i =>
  (sqnorm x l (i 0) + sqnorm y l (i 1)) - Ideal.ofBits .f32 0x40000000#32 * inner x y l (i 0) (i 1)

/-- On the extended reals `max v 0 · 0 + v = v` for EVERY `v`, the infinities included: a product with zero is zero. -/
theorem clamp_term_vanishes (v : EReal) : max v 0 * 0 + v = v := by
  rw [mul_zero, zero_add]

end Cert.DiagDist

end
-- ==== Proof.RefDist.lean ====
/-
  The second program computes the table of squared scaled distances (`Cert.DiagDist.dist`).

  Read one operation at a time: the scale is the exponential of the logarithms, broadcast over the points;
  each point array is multiplied by it; the squared norms are row sums of the squares (a row sum on the
  extended reals is its initial value `0` plus the sum over the coordinate); the inner products are one matrix
  product of the scaled `x` with the TRANSPOSE of the scaled `y`, which at entry `(r, s)` sums over `d` the
  products of entry `(r, d)` with entry `(d, s)` of the transpose, that is entry `(s, d)` of the scaled `y`;
  the norms are laid along the rows and the columns and added, and twice the product is subtracted.
  The last three operations add `max v 0 · 0` to each entry `v`, which changes nothing.
-/
import proofs.«180381_j3058016715341_2_alg».proof.Proof.Gen.ReferenceIdeal.Read
import proofs.«180381_j3058016715341_2_alg».proof.Proof.DistSpec

noncomputable section

open scoped BigOperators

namespace Cert.ReferenceIdeal.RefDist

open Cert.ReferenceIdeal Cert.ReferenceIdeal.Read Cert.DiagDist
open Idealize.ShloMosaic Idealize.ShloMosaic.ValueIdx

variable (x y : FVec Ideal Pts .f32) (l : FVec Ideal Coords .f32)

/-- The scaled `x`: entry `(r, d)` is `x r d · exp (l d)`. -/
theorem scaled_x (r : Fin 8192) (d : Fin 512) : val_main_v3 (F := Ideal) x l (ix2 r d) = scaled x l r d := by
  rw [val_main_v3_apply, val_main_v2_apply, val_main_v1_apply, val_main_v0_apply]
  have e : idx_main_v1 (idx_main_v2 (ix2 r d)) = ix1 d := funext fun a => by match a with | ⟨0, _⟩ => rfl
  rw [e]
  rfl

/-- The scaled `y`: entry `(s, d)` is `y s d · exp (l d)`. -/
theorem scaled_y (s : Fin 8192) (d : Fin 512) : val_main_v6 (F := Ideal) y l (ix2 s d) = scaled y l s d := by
  rw [val_main_v6_apply, val_main_v5_apply, val_main_v4_apply, val_main_v0_apply]
  have e : idx_main_v4 (idx_main_v5 (ix2 s d)) = ix1 d := funext fun a => by match a with | ⟨0, _⟩ => rfl
  rw [e]
  rfl

/-- The row sums of the squares of the scaled `x` are its points' squared norms. -/
theorem sqnorm_x (r : Fin 8192) : val_main_v8 (F := Ideal) x l (ix1 r) = sqnorm x l r := by
  rw [val_main_v8_apply, val_main_cst_apply]
  show Ideal.ofBits .f32 0x00000000#32 + _ = _
  rw [Ideal.ofBits_zero_f32, zero_add]
  refine Finset.sum_congr rfl fun d _ => ?_
  have e : idx_main_v8 (ix1 r) d = ix2 r d := funext fun a => by match a with | ⟨0, _⟩ => rfl | ⟨1, _⟩ => rfl
  rw [e, val_main_v7_apply, scaled_x]
  rfl

/-- The row sums of the squares of the scaled `y` are its points' squared norms. -/
theorem sqnorm_y (s : Fin 8192) : val_main_v10 (F := Ideal) y l (ix1 s) = sqnorm y l s := by
  rw [val_main_v10_apply, val_main_cst_0_apply]
  show Ideal.ofBits .f32 0x00000000#32 + _ = _
  rw [Ideal.ofBits_zero_f32, zero_add]
  refine Finset.sum_congr rfl fun d _ => ?_
  have e : idx_main_v10 (ix1 s) d = ix2 s d := funext fun a => by match a with | ⟨0, _⟩ => rfl | ⟨1, _⟩ => rfl
  rw [e, val_main_v9_apply, scaled_y]
  rfl

/-- The matrix product with the transpose, at `(r, s)`, is the inner product of the scaled points `r` and `s`. -/
theorem inner_xy (r s : Fin 8192) : val_main_v12 (F := Ideal) x y l (ix2 r s) = inner x y l r s := by
  rw [val_main_v12_apply]
  refine Finset.sum_congr rfl fun d _ => ?_
  have el : lidx_main_v12 (ix2 r s) d = ix2 r d := funext fun a => by match a with | ⟨0, _⟩ => rfl | ⟨1, _⟩ => rfl
  have er : idx_main_v11 (ridx_main_v12 (ix2 r s) d) = ix2 s d :=
    funext fun a => by match a with | ⟨0, _⟩ => rfl | ⟨1, _⟩ => rfl
  rw [el, val_main_v11_apply, er, scaled_x, scaled_y]

/-- The table before the last three operations is the spec's. -/
theorem diff_eq (r s : Fin 8192) : val_main_v20 (F := Ideal) x y l (ix2 r s) = dist x y l (ix2 r s) := by
  rw [val_main_v20_apply, val_main_v17_apply, val_main_v19_apply, val_main_v15_apply, val_main_v13_apply,
    val_main_v16_apply, val_main_v14_apply, val_main_v18_apply, val_main_cst_1_apply, inner_xy]
  have e0 : idx_main_v13 (idx_main_v15 (ix2 r s)) = ix1 r := funext fun a => by match a with | ⟨0, _⟩ => rfl
  have e1 : idx_main_v14 (idx_main_v16 (ix2 r s)) = ix1 s := funext fun a => by match a with | ⟨0, _⟩ => rfl
  rw [e0, e1, sqnorm_x, sqnorm_y]
  rfl

/-- The second program's result is the table of squared scaled distances. -/
theorem result_eq : val_main_v25 (F := Ideal) x y l = dist x y l := by
  funext i
  obtain ⟨r, s, rfl⟩ : ∃ (r s : Fin 8192), i = ix2 r s := ⟨i 0, i 1, eq_ix2 i⟩
  rw [val_main_v25_apply, val_main_v24_apply, val_main_v22_apply, val_main_v21_apply, val_main_v23_apply,
    val_main_cst_2_apply, val_main_cst_3_apply, diff_eq]
  show max (dist x y l (ix2 r s)) (Ideal.ofBits .f32 0x00000000#32) * Ideal.ofBits .f32 0x00000000#32
    + dist x y l (ix2 r s) = _
  rw [Ideal.ofBits_zero_f32]
  exact clamp_term_vanishes _

end Cert.ReferenceIdeal.RefDist

end
-- ==== Proof.BodyPiece.lean ====
/-
  What the kernel body leaves in its output block, as a value.

  The body has one control case and one store, through the whole output block, so the block ends holding that
  store's payload. The payload is a function of three loaded values: the scale row and the block of `x` rows,
  each loaded whole, and 1024 rows of the resident `y` buffer, loaded through the rectangle that starts at row
  `1024 · j` at grid point `(i, j)`. A load through the whole buffer reads its contents; the third load is kept
  as the read of the buffer through that rectangle (`yrows`). The body also loads the output block before
  storing to it; nothing depends on that value.
-/
import proofs.«180381_j3058016715341_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero_offsets : (![0, 0] : Fin 2 → Nat) = fun _ => 0 := funext fun a => by fin_cases a <;> rfl

/-- The 1024 rows of the resident buffer's contents `Y` that the body loads at grid point `i`. -/
abbrev yrows (i : grid0.Coords) (Y : Vec F S8192x512 .f32) : Vec F S1024x512 .f32 :=
  View.ld Y (Rect.unit (s := S8192x512) (k0_off1 i) S1024x512.size (k0_off1_inb i))

/-- The output block after the body: the payload of the scale row `s`, the block `X` of `x` rows and the loaded
    rows of `Y`. -/
theorem out_eq (c : Dev nD) (i : grid0.Coords) (a2 : Memref sig .tc .vmem S1024x512 .f32) (h2 : a2.IsWhole)
    (a3 : Memref sig .tc .vmem S8192x512 .f32) (h3 : a3.IsWhole) (a4 : Memref sig .tc .vmem S1x512 .f32) (h4 : a4.IsWhole)
    (a5 : Memref sig .tc .vmem S1024x1024 .f32) (h5 : a5.IsWhole)
    (X : Vec F S1024x512 .f32) (Y : Vec F S8192x512 .f32) (s : Vec F S1x512 .f32) :
    out0_A_3 c i a2 h2 a3 h3 a4 h4 a5 h5 X Y s = k0_pay1 s X (yrows i Y) := by
  unfold out0_A_3
  rw [View.read_writes_eq_canon _ _ _ (cover0_A_3 c i a2 h2 a3 h3 a4 h4 a5 h5 X Y s)]
  unfold kernelRun0_A
  dsimp only
  rw [View.canon_unit_zero zero_offsets]
  simp only [View.readAt_eq_ld, h2.read_unread, h3.read_unread, h4.read_unread,
    View.ld_unit_zero (S := S1024x512) zero_offsets, View.ld_unit_zero (S := S1x512) zero_offsets]

end Cert.KernelIdeal.Body

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.BodyValue.lean ====
/-
  The body's payload read at one entry, over the extended reals.

  The payload is built from two scaled blocks: the block `A` of `x` rows and the block `B` of `y` rows, each
  multiplied by the scale row `s` broadcast over the rows (`scaledBlk`). From each scaled block it takes the row
  sums of the squares, kept as a column (`colsq`); it lays the first column along the rows and the second,
  transposed to a row, along the columns, and adds them; it takes the matrix product of the first scaled block
  with the second contracted over the coordinate axis of BOTH (no transpose is formed), into a zero accumulator
  (a change of float format is the identity here); and subtracts twice the product from the sum.
  So at entry `(p, q)` of the block it is

      (∑ d, (A p d · s d)² + ∑ d, (B q d · s d)²) − 2 · ∑ d, (A p d · s d) · (B q d · s d).
-/
import proofs.«180381_j3058016715341_2_alg».proof.Proof.Gen.KernelIdeal.Skeleton
import proofs.«180381_j3058016715341_2_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.ColumnForms
open Idealize.ShloMosaic Idealize.ShloMosaic.ValueIdx

/-! ## The payload's parts, at any float instance -/

section Parts
variable {F : FTy → Type} [FloatOps F]

/-- A block of rows multiplied by the scale row, the row broadcast over the block's rows. -/
def scaledBlk (s : FVec F S1x512 .f32) (A : FVec F S1024x512 .f32) : FVec F S1024x512 .f32 :=
  mulf A (broadcastTo S1024x512 (shapeCast S1x512 s shapeCasts_S1x512_S1x512) broadcasts_S1x512_S1024x512)

/-- The row sums of the squares of a block, as a column. -/
def colsq (W : FVec F S1024x512 .f32) : FVec F S1024x1 .f32 :=
  shapeCast S1024x1 (multiReduction .add [1] S1024 (mulf W W) 0x00000000#32 reduces_S1024x512_S1024 (.inl rfl) rfl)
    shapeCasts_S1024_S1024x1

/-- The product of two blocks contracted over the coordinate axis of both, in the narrower format, from zero. -/
def gram (U W : FVec F S1024x512 .f32) : FVec F S1024x1024 .f32 :=
  matmul dot_S1024x512_S1024x512_S1024x1024_1_1_0_0_n_n none (truncf .bf16 U bitsLt_bf16_f32)
    (truncf .bf16 W bitsLt_bf16_f32) (constant S1024x1024 .f32 0x00000000#32)

/-- The payload is these parts combined: the two columns of row sums laid along the rows and (transposed) along
    the columns and added, less twice the product. -/
theorem payload_parts (s : FVec F S1x512 .f32) (A B : FVec F S1024x512 .f32) :
    k0_pay1 s A B
      = subf
          (addf (broadcastTo S1024x1024 (colsq (scaledBlk s A)) broadcasts_S1024x1_S1024x1024)
            (broadcastTo S1024x1024
              (transpose S1x1024 [1, 0] (colsq (scaledBlk s B)) transposes_S1024x1_p1_0_S1x1024)
              broadcasts_S1x1024_S1024x1024))
          (mulf (broadcast S1024x1024 (Scalar.ofBits .f32 0x40000000#32)) (gram (scaledBlk s A) (scaledBlk s B))) :=
  rfl

end Parts

/-! ## The parts at an entry, over the extended reals -/

/-- A scaled block at `(p, d)`: the block's entry times the scale of coordinate `d`. -/
theorem scaledBlk_apply (s : FVec Ideal S1x512 .f32) (A : FVec Ideal S1024x512 .f32) (p : Fin 1024) (d : Fin 512) :
    scaledBlk s A (ix2 p d) = A (ix2 p d) * s (ix2 (0 : Fin 1) d) := by
  unfold scaledBlk
  rw [mulf_apply, shapeCast_self]
  exact congrArg (A (ix2 p d) * ·) (broadcastTo_1b_ab_apply s broadcasts_S1x512_S1024x512 p d)

/-- The column of row sums at `(p, 0)`: the sum over the coordinates of the squares of row `p`. -/
theorem colsq_apply (W : FVec Ideal S1024x512 .f32) (p : Fin 1024) (u : Fin 1) :
    colsq W (ix2 p u) = ∑ d : Fin 512, W (ix2 p d) * W (ix2 p d) := by
  unfold colsq
  refine (shapeCast_a_a1_apply _ shapeCasts_S1024_S1024x1 p u).trans ?_
  refine (Ideal.multiReduction_add_single (mulf W W) 0x00000000#32 reduces_S1024x512_S1024 (.inl rfl) rfl (ix1 p)).trans ?_
  refine Finset.sum_congr rfl fun d _ => ?_
  have e : reduces_S1024x512_S1024.lift (ix1 p) d = ix2 p d :=
    funext fun a => Fin.ext (by match a with | ⟨0, _⟩ => rfl | ⟨1, _⟩ => rfl)
  rw [e]
  rfl

/-- The product's left operand index at output `j`, contraction index `k`: row `j 0`, coordinate `k`. -/
theorem gram_lhs_0 (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem gram_lhs_1 (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k
/-- The right operand's: row `j 1`, coordinate `k` — the second block is contracted over its coordinate axis too. -/
theorem gram_rhs_0 (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem gram_rhs_1 (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- The product at `(p, q)`: the sum over the coordinates of row `p` of the first block times row `q` of the
    second. -/
theorem gram_apply (U W : FVec Ideal S1024x512 .f32) (p q : Fin 1024) :
    gram U W (ix2 p q) = ∑ d : Fin 512, U (ix2 p d) * W (ix2 q d) := by
  unfold gram
  simp only [matmul]
  rw [Ideal.matmul_constant_zero_apply,
    ← Equiv.sum_comp (ValueIdx.contrEquiv1 dot_S1024x512_S1024x512_S1024x1024_1_1_0_0_n_n 512 rfl rfl).symm]
  refine Finset.sum_congr rfl fun d _ => ?_
  have hd := ValueIdx.contrEquiv1_symm_val dot_S1024x512_S1024x512_S1024x1024_1_1_0_0_n_n 512 rfl rfl d
  have el : dot_S1024x512_S1024x512_S1024x1024_1_1_0_0_n_n.lhsIdx (ix2 p q)
      ((ValueIdx.contrEquiv1 dot_S1024x512_S1024x512_S1024x1024_1_1_0_0_n_n 512 rfl rfl).symm d) = ix2 p d :=
    funext fun a => Fin.ext (by
      match a with
      | ⟨0, _⟩ => exact gram_lhs_0 _ _
      | ⟨1, _⟩ => exact (gram_lhs_1 _ _).trans hd)
  have er : dot_S1024x512_S1024x512_S1024x1024_1_1_0_0_n_n.rhsIdx (ix2 p q)
      ((ValueIdx.contrEquiv1 dot_S1024x512_S1024x512_S1024x1024_1_1_0_0_n_n 512 rfl rfl).symm d) = ix2 q d :=
    funext fun a => Fin.ext (by
      match a with
      | ⟨0, _⟩ => exact gram_rhs_0 _ _
      | ⟨1, _⟩ => exact (gram_rhs_1 _ _).trans hd)
  rw [el, er]
  rfl

/-- THE PAYLOAD AT AN ENTRY: the two squared norms of the scaled rows added, less twice their inner product. -/
theorem payload_apply (s : FVec Ideal S1x512 .f32) (A B : FVec Ideal S1024x512 .f32) (p q : Fin 1024) :
    k0_pay1 (F := Ideal) s A B (ix2 p q)
      = (∑ d : Fin 512, (A (ix2 p d) * s (ix2 (0 : Fin 1) d)) * (A (ix2 p d) * s (ix2 (0 : Fin 1) d))
          + ∑ d : Fin 512, (B (ix2 q d) * s (ix2 (0 : Fin 1) d)) * (B (ix2 q d) * s (ix2 (0 : Fin 1) d)))
        - Ideal.ofBits .f32 0x40000000#32
            * ∑ d : Fin 512, (A (ix2 p d) * s (ix2 (0 : Fin 1) d)) * (B (ix2 q d) * s (ix2 (0 : Fin 1) d)) := by
  rw [payload_parts, subf_apply, addf_apply, mulf_apply, broadcast_apply,
    broadcastTo_a1_ab_apply _ broadcasts_S1024x1_S1024x1024 p q,
    broadcastTo_1b_ab_apply _ broadcasts_S1x1024_S1024x1024 p q,
    transpose_ix2_apply _ transposes_S1024x1_p1_0_S1x1024 (0 : Fin 1) q,
    colsq_apply, colsq_apply, gram_apply]
  simp only [scaledBlk_apply]
  rfl

end Cert.KernelIdeal.BodyValue

end
-- ==== Proof.KernelDist.lean ====
/-
  The kernel's result array is the table of squared scaled distances (`Cert.DiagDist.dist`).

  The grid has 8 × 8 points. At point `(i, j)` the body is given rows `1024·i …` of `x` (its first window's
  block), the whole of `y` (one resident block, the same at every point), the scale row (the exponential of the
  logarithms, computed and reshaped to one row before the kernel is launched), and writes block `(i, j)` of the
  result. From the resident `y` it loads rows `1024·j …`. So entry `(p, q)` of the block it writes is the
  payload at `(p, q)` of rows `1024·i + p` of `x` and `1024·j + q` of `y`, which is the table's entry at
  `(1024·i + p, 1024·j + q)` — the array index under `(p, q)` of block `(i, j)`. The 64 blocks tile the array
  (the block that covers entry `(r, s)` is `(r / 1024, s / 1024)`), every point writes its block back, so the
  array ends holding the table.
-/
import proofs.«180381_j3058016715341_2_alg».proof.Proof.Gen.KernelIdeal.Value
import proofs.«180381_j3058016715341_2_alg».proof.Proof.DistSpec
import proofs.«180381_j3058016715341_2_alg».proof.Proof.BodyPiece
import proofs.«180381_j3058016715341_2_alg».proof.Proof.BodyValue
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.KernelDist

open Cert.KernelIdeal Cert.KernelIdeal.Gen Cert.DiagDist
open Idealize.ShloMosaic Idealize.ShloMosaic.TcCoe Idealize.SL.Sem Idealize.ShloMosaic.ValueIdx
open Idealize.ShloMosaic.Pipeline (Dat)

/-! ## One entry of one block, over variables -/

/-- Row `p` of block `b` of an array of 8192 rows cut into 8 blocks of 1024. -/
def row (b : Nat) (hb : b ≤ 7) (p : Fin 1024) : Fin 8192 := ⟨b * 1024 + p.val, by have := p.isLt; omega⟩

/-- If the scale row `s` holds the scales, `A` holds block `bi` of the rows of `X` and `B` block `bj` of the rows
    of `Y`, the payload at `(p, q)` is the table's entry at those rows. -/
theorem entry_eq (X Y : FVec Ideal Pts .f32) (L : FVec Ideal Coords .f32)
    (s : FVec Ideal S1x512 .f32) (A B : FVec Ideal S1024x512 .f32) (bi bj : Nat) (hi : bi ≤ 7) (hj : bj ≤ 7)
    (hs : ∀ d : Fin 512, s (ix2 (0 : Fin 1) d) = scale L d)
    (hA : ∀ (p : Fin 1024) (d : Fin 512), A (ix2 p d) = X (ix2 (row bi hi p) d))
    (hB : ∀ (q : Fin 1024) (d : Fin 512), B (ix2 q d) = Y (ix2 (row bj hj q) d))
    (p q : Fin 1024) :
    k0_pay1 (F := Ideal) s A B (ix2 p q) = dist X Y L (ix2 (row bi hi p) (row bj hj q)) := by
  rw [BodyValue.payload_apply]
  simp only [hs, hA, hB]
  rfl

/-! ## The index maps, decided over the grid -/

/-- At every grid point: the first window's block index is the output's row-block index; the resident and the
    scale windows stay at block `(0, 0)`; the output's block indices are below 8; and the body's load from the
    resident buffer starts at row `1024 ·` the output's column-block index, column `0`. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) ≤ 7
    ∧ k0_off1 (grid0.coords t) (0 : Fin 2) = win0_3.index t (1 : Fin 2) * 1024
    ∧ k0_off1 (grid0.coords t) (1 : Fin 2) = 0 :=
  (by decide +kernel : ∀ t : Fin grid0.N, _)

/-- Every one of the 8 × 8 blocks is some point's. -/
theorem idx_onto : ∀ (bi bj : Fin 8), ∃ t : Fin cfg0.N, win0_3.index t = ![bi.val, bj.val] :=
  (by decide +kernel : ∀ (bi bj : Fin 8), ∃ t : Fin grid0.N, win0_3.index t = ![bi.val, bj.val])

/-! ## What the windows hold -/

variable (m : (ℓ : Loc nD τ sig) → Buf (Elt Ideal) ℓ) (ρ : Dev nD → PrngReg)

/-- The scale row as the kernel finds it: the exponential of the logarithms, reshaped to one row. -/
theorem V_scale (c : Dev nD) :
    (V m c main_v1 : S1x512.Idx → EReal)
      = shapeCast S1x512 (Host.exp (m ((c : Thread nD τ).loc main_arg2)) : FVec Ideal S512 .f32) shapeCasts_S512_S1x512 := by
  dsimp only [Gen.V, Gen.hostOps0]; after_results; rfl

/-- WHAT POINT `t` WRITES BACK is block `t` of the table of the argument arrays. -/
theorem flushed_eq (c : Dev nD) (t : Fin cfg0.N) :
    (dats m 0 c).flushed 3 t
      = ((cfg0.win 3).blk t).view.read (Elt Ideal)
          (dist (m ((c : Thread nD τ).loc main_arg0)) (m ((c : Thread nD τ).loc main_arg1)) (m ((c : Thread nD τ).loc main_arg2))) := by
  refine (Value.flushed3_A m c t).trans ?_
  refine (congrArg ((cfg0.win 3).cut (grid0.coords t))
    (Body.out_eq c (grid0.coords t) (ms0_0 t) (hs0_0 t) (ms0_1 t) (hs0_1 t) (ms0_2 t) (hs0_2 t) (ms0_3 t) (hs0_3 t)
      (iblk m c 0 t) (iblk m c 1 t) (iblk m c 2 t))).trans ?_
  obtain ⟨e00, e01, e10, e11, e20, e21, hi, hj, ey0, ey1⟩ := idx_facts t
  funext j
  obtain ⟨p, q, rfl⟩ : ∃ (p q : Fin 1024), j = ix2 p q := ⟨j 0, j 1, eq_ix2 j⟩
  show k0_pay1 (F := Ideal) (iblk m c 2 t) (iblk m c 0 t) (Body.yrows (grid0.coords t) (iblk m c 1 t)) (ix2 p q)
    = dist (m ((c : Thread nD τ).loc main_arg0)) (m ((c : Thread nD τ).loc main_arg1)) (m ((c : Thread nD τ).loc main_arg2))
        (((cfg0.win 3).blk t).view.emb (ix2 p q))
  refine (entry_eq (m ((c : Thread nD τ).loc main_arg0)) (m ((c : Thread nD τ).loc main_arg1)) (m ((c : Thread nD τ).loc main_arg2))
    (iblk m c 2 t) (iblk m c 0 t) (Body.yrows (grid0.coords t) (iblk m c 1 t))
    (win0_3.index t (0 : Fin 2)) (win0_3.index t (1 : Fin 2)) hi hj ?_ ?_ ?_ p q).trans ?_
  · -- the scale row: block (0, 0) of the one-row array, whose entry `(0, d)` is the exponential of logarithm `d`
    intro d
    show (V m c main_v1 : S1x512.Idx → EReal) (((cfg0.win 2).blk t).view.emb (ix2 (0 : Fin 1) d)) = _
    have e : (((cfg0.win 2).blk t).view.emb (ix2 (0 : Fin 1) d) : S1x512.Idx) = ix2 (0 : Fin 1) d :=
      funext fun a => Fin.ext (by
        match a with
        | ⟨0, _⟩ => show win0_2.index t (0 : Fin 2) * 1 + 1 * 0 = 0; rw [e20]
        | ⟨1, _⟩ => show win0_2.index t (1 : Fin 2) * 512 + 1 * d.val = d.val; rw [e21]; omega)
    rw [e, V_scale m c]
    exact shapeCast_a_1a_apply _ shapeCasts_S512_S1x512 (0 : Fin 1) d
  · -- the block of `x` rows
    intro p d
    show V m c main_arg0 (((cfg0.win 0).blk t).view.emb (ix2 p d)) = _
    rw [V_main_arg0 m c]
    refine congrArg (m ((c : Thread nD τ).loc main_arg0)) (funext fun a => Fin.ext ?_)
    match a with
    | ⟨0, _⟩ => show win0_0.index t (0 : Fin 2) * 1024 + 1 * p.val = win0_3.index t (0 : Fin 2) * 1024 + p.val; rw [e00]; omega
    | ⟨1, _⟩ => show win0_0.index t (1 : Fin 2) * 512 + 1 * d.val = d.val; rw [e01]; omega
  · -- the rows loaded from the resident `y`
    intro q d
    show V m c main_arg1 (((cfg0.win 1).blk t).view.emb _) = _
    rw [V_main_arg1 m c]
    refine congrArg (m ((c : Thread nD τ).loc main_arg1)) (funext fun a => Fin.ext ?_)
    match a with
    | ⟨0, _⟩ =>
      show win0_1.index t (0 : Fin 2) * 8192 + 1 * (k0_off1 (grid0.coords t) (0 : Fin 2) + 1 * q.val)
        = win0_3.index t (1 : Fin 2) * 1024 + q.val
      rw [e10, ey0]; omega
    | ⟨1, _⟩ =>
      show win0_1.index t (1 : Fin 2) * 512 + 1 * (k0_off1 (grid0.coords t) (1 : Fin 2) + 1 * d.val) = d.val
      rw [e11, ey1]; omega
  · -- the array index under `(p, q)` of the output's block
    refine congrArg (dist _ _ _) (funext fun a => Fin.ext ?_)
    match a with
    | ⟨0, _⟩ => show win0_3.index t (0 : Fin 2) * 1024 + p.val = win0_3.index t (0 : Fin 2) * 1024 + 1 * p.val; omega
    | ⟨1, _⟩ => show win0_3.index t (1 : Fin 2) * 1024 + q.val = win0_3.index t (1 : Fin 2) * 1024 + 1 * q.val; omega

/-! ## The blocks tile the array -/

/-- An index of the array is in point `t`'s block iff each coordinate is in the block's range on its axis. -/
theorem mem_blk (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v2).slice (win0_3.rect t)).set ↔ _
  rw [View.set_slice_whole, Rect.mem_set_unit]
  exact Iff.rfl

/-- Every entry `(r, s)` is in the block of the point whose output block is `(r / 1024, s / 1024)`. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run: the table of the argument arrays. -/
theorem final (c : Dev nD) :
    (dats m 0 c).arrAt 3 cfg0.N
      = dist (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at the table of the arguments, the arguments unchanged. -/
theorem run : θ_run defs (onTc (τ := τ) (main (F := Ideal))) ⟨m, fun _ => 0, ρ⟩ fun r => ∀ c : Dev nD,
      r.2.mem ((c : Thread nD τ).loc main_v2)
        = dist (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelDist

end
-- ==== Proof.lean ====
/-
  Squared scaled distances between two sets of 8192 points in 512 coordinates: a tiled kernel against a
  whole-array program, equal over the extended reals.

  With `e d = exp (l d)`, `xs r d = x r d · e d` and `ys s d = y s d · e d`, both programs compute at `(r, s)`

      (∑ d, xs r d · xs r d + ∑ d, ys s d · ys s d) − 2 · ∑ d, xs r d · ys s d        (`Cert.DiagDist.dist`).

  The kernel computes it block by block: on an 8 × 8 grid, point `(i, j)` takes rows `1024·i …` of `x`, loads
  rows `1024·j …` of `y` from a copy of the whole of `y` that stays resident, scales both by the row of scales,
  forms the two columns of squared norms as row sums and the inner products as ONE matrix product contracted
  over the coordinate axis of both blocks (through a narrower float format, which is the identity on extended
  reals), and writes block `(i, j)`; the 64 blocks tile the array (`Cert.KernelIdeal.KernelDist`).
  The other program computes the three sums over the whole arrays (the inner products as a product with the
  transposed scaled `y`), and then adds `max v 0 · 0` to each entry `v`; a product with zero is zero on the
  extended reals whatever the other factor, so that changes nothing (`Cert.ReferenceIdeal.RefDist`).
  The sums are the same sums term by term and are combined in the same order, so no law that needs a finite
  value is used, and the hypothesis that the inputs are finite is never opened.

  The kernel's idealization rewrote no operation, so the claim that it is the kernel's idealization is `True`.
  The three claims that each program runs to completion with its arguments unchanged are, for the kernel and
  its idealization, the generated frame theorems, and for the whole-array program its generated run with the
  result dropped.
-/
import proofs.«180381_j3058016715341_2_alg».proof.Defs
import proofs.«180381_j3058016715341_2_alg».proof.Proof.Gen.Kernel
import proofs.«180381_j3058016715341_2_alg».proof.Proof.Gen.Kernel.Frame
import proofs.«180381_j3058016715341_2_alg».proof.Proof.Gen.KernelIdeal
import proofs.«180381_j3058016715341_2_alg».proof.Proof.Gen.KernelIdeal.Frame
import proofs.«180381_j3058016715341_2_alg».proof.Proof.Gen.KernelIdeal.Value
import proofs.«180381_j3058016715341_2_alg».proof.Proof.Gen.ReferenceIdeal
import proofs.«180381_j3058016715341_2_alg».proof.Proof.Gen.ReferenceIdeal.Run
import proofs.«180381_j3058016715341_2_alg».proof.Proof.Gen.ReferenceIdeal.Read
import proofs.«180381_j3058016715341_2_alg».proof.Proof.Gen.Pre_finite_inputs
import proofs.«180381_j3058016715341_2_alg».proof.Proof.RefDist
import proofs.«180381_j3058016715341_2_alg».proof.Proof.KernelDist
import Idealize.ShloMosaic.Adequacy
import Idealize.ShloMosaic.Init

noncomputable section

namespace Cert.Proof

open Idealize.ShloMosaic Idealize.ShloMosaic.TcCoe Idealize.SL.Sem

/-- The kernel runs to completion and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the whole-array program: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to idealize it. -/
theorem preserves : Cert.preserves_Kernel_KernelIdeal := trivial

/-- From memories that agree on the three arguments both programs end with the table of squared scaled distances
    of those arguments as their result. -/
theorem algebraic : Cert.algebraic_KernelIdeal_ReferenceIdeal := by
  intro m ρ m' ρ' _ hagree
  refine ⟨fun c => Cert.DiagDist.dist (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.KernelDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefDist.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
